-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x64 : Shape := ⟨2, ![1600000, 64]⟩
abbrev S1x64 : Shape := ⟨2, ![1, 64]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S1x64 : S_.BroadcastsInDim S1x64 (![] : Fin 0 → Fin S1x64.rank)
  reducesTo_S1x64_S_d0_1 : S1x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S1600000x64 .f32) (main_arg3 : FVec F S1x64 .f32) (main_arg4 : IVec S100000 32) (main_arg5 : FVec F S128x128 .f32) (main_arg6 : FVec F S128 .f32) (main_arg7 : FVec F S128x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S1600000x64 : Shape := ⟨2, ![1600000, 64]⟩
abbrev S1x64 : Shape := ⟨2, ![1, 64]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S64x128 : Shape := ⟨2, ![64, 128]⟩
abbrev S1x128 : Shape := ⟨2, ![1, 128]⟩
abbrev S2000x64 : Shape := ⟨2, ![2000, 64]⟩
abbrev S2000x128 : Shape := ⟨2, ![2000, 128]⟩

abbrev nBuf : Space → Nat
  | .hbm => 20
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S1x64, .f32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x64, .f32⟩
  | .hbm, ⟨13, _⟩ => ⟨S1600000x1, .i32⟩
  | .hbm, ⟨14, _⟩ => ⟨S100000x64, .f32⟩
  | .hbm, ⟨15, _⟩ => ⟨S64x128, .f32⟩
  | .hbm, ⟨16, _⟩ => ⟨S64x128, .f32⟩
  | .hbm, ⟨17, _⟩ => ⟨S1x128, .f32⟩
  | .hbm, ⟨18, _⟩ => ⟨S1x64, .f32⟩
  | .hbm, ⟨19, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  slices_S128x128_S64x128_0_0 : S128x128.Slices ![0, 0] S64x128
  slices_S128x128_S64x128_64_0 : S128x128.Slices ![64, 0] S64x128
  shapeCasts_S128_S1x128 : S128.ShapeCasts S1x128
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .f32 = 32 ∨ (Rect.block (s := S100000x64) S2000x64.size (cc0_transform_7 i) (hinb0_7 i)).WholeWords (EltTy.packing .f32)

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x64 : Shape := ⟨2, ![1600000, 64]⟩
abbrev S1x64 : Shape := ⟨2, ![1, 64]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S1x64, .f32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x64, .f32⟩
  | .hbm, ⟨13, _⟩ => ⟨S1600000x1, .i32⟩
  | .hbm, ⟨14, _⟩ => ⟨S100000x64, .f32⟩
  | .hbm, ⟨15, _⟩ => ⟨S100000x128, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000x64_S1600000x1_S1600000x64_1_0_0_1_wf : ScatterDims.WF S100000x64 S1600000x1 S1600000x64 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«152239_j7713761264052_1_alg».proof.Proof.LibContract
import proofs.«152239_j7713761264052_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.MlpEntry.lean ====
/-
  One entry of a two-layer perceptron over a joined row, on the extended reals.

  A node's feature row x (64 numbers) and its aggregated message row s (64 numbers) are joined into one row of 128,
  multiplied by a 128 × 128 weight matrix, shifted by a bias, clipped below at zero, multiplied by a 128 × 64 weight
  matrix and shifted by a second bias. Written over the two halves of the first weight matrix — its first 64 rows wa
  and its last 64 rows wb — the hidden unit k is max (∑ a, x a · wa a k + ∑ a, s a · wb a k + b1 k) 0, and the output is
  ∑ k, hidden k · w2 k + b2. That the joined row's product with the whole matrix is the sum of the two halves' products
  is a sum over 128 positions split at 64: it uses only that addition is commutative and associative, so it holds
  on the extended reals at every value, infinite ones included.
-/
import Idealize.ShloMosaic.PureOps.Ideal
import Idealize.ShloMosaic.PureOps.Ideal.Laws

noncomputable section

open scoped BigOperators

namespace Cert.NodeMlp

open Idealize.ShloMosaic

/-- The zero the hidden layer is clipped at: the f32 word of all zero bits, read on the extended reals. -/
abbrev zeroWord : EReal := Ideal.ofBits .f32 0x00000000#32

/-- One output entry from a node's feature row `xr`, its message row `sr`, the two halves `wa`, `wb` of the first weight
    matrix, the first bias `b1`, the output's column `w2` of the second weight matrix and its bias `b2`. -/
def entry (xr sr : Fin 64 → EReal) (wa wb : Fin 64 → Fin 128 → EReal) (b1 : Fin 128 → EReal)
    (w2 : Fin 128 → EReal) (b2 : EReal) : EReal :=
  (∑ k : Fin 128, max ((∑ a : Fin 64, xr a * wa a k + ∑ a : Fin 64, sr a * wb a k) + b1 k) zeroWord * w2 k) + b2

/-- A sum over 128 positions is the sum over the first 64 plus the sum over the last 64. -/
theorem sum_halves {M : Type*} [AddCommMonoid M] (f : Fin 128 → M) :
    ∑ a : Fin 128, f a
      = ∑ a : Fin 64, f ⟨a.val, Nat.lt_of_lt_of_le a.isLt (by decide)⟩
        + ∑ a : Fin 64, f ⟨64 + a.val, by have := a.isLt; omega⟩ :=
  Fin.sum_univ_add (a := 64) (b := 64) f

/-- The same entry written over the joined row `c` and the whole first weight matrix `w1`: when the joined row's first
    half is `xr` and its last half `sr`, and the matrix's first 64 rows are `wa` and its last 64 `wb`, the hidden
    unit's product over 128 positions is the two halves' products added. -/
theorem entry_joined (xr sr : Fin 64 → EReal) (wa wb : Fin 64 → Fin 128 → EReal) (b1 : Fin 128 → EReal)
    (w2 : Fin 128 → EReal) (b2 : EReal) (c : Fin 128 → EReal) (w1 : Fin 128 → Fin 128 → EReal)
    (hcx : ∀ a : Fin 64, c ⟨a.val, Nat.lt_of_lt_of_le a.isLt (by decide)⟩ = xr a)
    (hcs : ∀ a : Fin 64, c ⟨64 + a.val, by have := a.isLt; omega⟩ = sr a)
    (hwa : ∀ (a : Fin 64) (k : Fin 128), w1 ⟨a.val, Nat.lt_of_lt_of_le a.isLt (by decide)⟩ k = wa a k)
    (hwb : ∀ (a : Fin 64) (k : Fin 128), w1 ⟨64 + a.val, by have := a.isLt; omega⟩ k = wb a k) :
    (∑ k : Fin 128, max ((∑ a : Fin 128, c a * w1 a k) + b1 k) zeroWord * w2 k) + b2 = entry xr sr wa wb b1 w2 b2 := by
  unfold entry
  refine congrArg (· + b2) (Finset.sum_congr rfl fun k _ => ?_)
  rw [sum_halves (fun a => c a * w1 a k)]
  simp only [hcx, hcs, hwa, hwb]

/-- The entry depends on its seven arguments only through their values. -/
theorem entry_congr {xr xr' sr sr' : Fin 64 → EReal} {wa wa' wb wb' : Fin 64 → Fin 128 → EReal} {b1 b1' : Fin 128 → EReal}
    {w2 w2' : Fin 128 → EReal} {b2 b2' : EReal} (hx : ∀ a, xr a = xr' a) (hs : ∀ a, sr a = sr' a)
    (ha : ∀ a k, wa a k = wa' a k) (hb : ∀ a k, wb a k = wb' a k) (h1 : ∀ k, b1 k = b1' k) (h2 : ∀ k, w2 k = w2' k)
    (h3 : b2 = b2') : entry xr sr wa wb b1 w2 b2 = entry xr' sr' wa' wb' b1' w2' b2' := by
  obtain rfl : xr = xr' := funext hx
  obtain rfl : sr = sr' := funext hs
  obtain rfl : wa = wa' := funext fun a => funext (ha a)
  obtain rfl : wb = wb' := funext fun a => funext (hb a)
  obtain rfl : b1 = b1' := funext h1
  obtain rfl : w2 = w2' := funext h2
  rw [h3]

end Cert.NodeMlp

end
-- ==== Proof.KernelEntry.lean ====
/-
  What the kernel's body stores, read at an entry.

  At a grid point the body loads a block of 2000 feature rows x0 and the matching 2000 message rows x1 (64 columns each),
  the two 64 × 128 halves x2, x3 of the first weight matrix, the first bias as a 1 × 128 row x4, the 128 × 64 second weight
  matrix x5 and the second bias as a 1 × 64 row x6. It multiplies x0 by x2 and x1 by x3 into zero accumulators, adds the
  two products and the bias row spread down the 2000 rows, takes the maximum with zero, multiplies by x5 into a zero
  accumulator and adds the second bias row spread down the rows. The changes of float format in between are the
  identity on the extended reals. So the stored entry (p, q) is the perceptron entry of row p of x0 and x1 against
  column q of x5.
-/
import proofs.«152239_j7713761264052_1_alg».proof.Proof.Gen.KernelIdeal.Skeleton
import proofs.«152239_j7713761264052_1_alg».proof.Proof.LibDenseVec
import proofs.«152239_j7713761264052_1_alg».proof.Proof.MlpEntry
import Idealize.ShloMosaic.Lib.ValueIdx
import Idealize.ShloMosaic.Lib.ValueLayout
import Idealize.ShloMosaic.Lib.Pipeline.Value

noncomputable section

open scoped BigOperators

namespace Cert.NodeMlp

open Cert.KernelIdeal Cert.KernelIdeal.Gen Idealize.ShloMosaic Idealize.ShloMosaic.ValueIdx

/-- The body's first-layer products ([2000, 64] · [64, 128]) contract the left operand's columns with the right
    operand's rows, one axis of extent 64, and their free axes read the result's row and column. -/
theorem plain_first : DenseVec.Plain dot_S2000x64_S64x128_S2000x128_1_0_0_1_n_n where
  rank := rfl
  size := fun _ => rfl
  lhs := rfl
  rhs := rfl
  row := fun j q => by
    unfold DotDims.lhsIdx
    rw [dif_neg (show ¬(0 : Fin S2000x64.rank) ∈ dot_S2000x64_S64x128_S2000x128_1_0_0_1_n_n.lhsBatch by decide),
      dif_pos (show (0 : Fin S2000x64.rank) ∈ dot_S2000x64_S64x128_S2000x128_1_0_0_1_n_n.lhsNonContracting by decide)]
    rfl
  col := fun j q => by
    unfold DotDims.rhsIdx
    rw [dif_neg (show ¬(1 : Fin S64x128.rank) ∈ dot_S2000x64_S64x128_S2000x128_1_0_0_1_n_n.rhsBatch by decide),
      dif_pos (show (1 : Fin S64x128.rank) ∈ dot_S2000x64_S64x128_S2000x128_1_0_0_1_n_n.rhsNonContracting by decide)]
    rfl

/-- The body's second-layer product ([2000, 128] · [128, 64]) likewise, over one axis of extent 128. -/
theorem plain_second : DenseVec.Plain dot_S2000x128_S128x64_S2000x64_1_0_0_1_n_n where
  rank := rfl
  size := fun _ => rfl
  lhs := rfl
  rhs := rfl
  row := fun j q => by
    unfold DotDims.lhsIdx
    rw [dif_neg (show ¬(0 : Fin S2000x128.rank) ∈ dot_S2000x128_S128x64_S2000x64_1_0_0_1_n_n.lhsBatch by decide),
      dif_pos (show (0 : Fin S2000x128.rank) ∈ dot_S2000x128_S128x64_S2000x64_1_0_0_1_n_n.lhsNonContracting by decide)]
    rfl
  col := fun j q => by
    unfold DotDims.rhsIdx
    rw [dif_neg (show ¬(1 : Fin S128x64.rank) ∈ dot_S2000x128_S128x64_S2000x64_1_0_0_1_n_n.rhsBatch by decide),
      dif_pos (show (1 : Fin S128x64.rank) ∈ dot_S2000x128_S128x64_S2000x64_1_0_0_1_n_n.rhsNonContracting by decide)]
    rfl

/-- The stored value at row `p`, column `q` of the block: the perceptron entry of the block's row `p`. -/
theorem stored_apply (x0 x1 : Vec Ideal S2000x64 .f32) (x2 x3 : Vec Ideal S64x128 .f32) (x4 : Vec Ideal S1x128 .f32)
    (x5 : Vec Ideal S128x64 .f32) (x6 : Vec Ideal S1x64 .f32) (p : Fin 2000) (q : Fin 64) :
    k0_pay1 x0 x1 x2 x3 x4 x5 x6 (ix2 p q)
      = entry (fun a => x0 (ix2 p a)) (fun a => x1 (ix2 p a)) (fun a k => x2 (ix2 a k)) (fun a k => x3 (ix2 a k))
          (fun k => x4 (ix2 (0 : Fin 1) k)) (fun k => x5 (ix2 k q)) (x6 (ix2 (0 : Fin 1) q)) := by
  unfold k0_pay1 entry
  simp only [shapeCast_self]
  rw [addf_apply, DenseVec.matmul_zero_ix2 plain_second, broadcastTo_1b_ab_apply]
  refine congrArg (· + x6 (ix2 (0 : Fin 1) q)) (Finset.sum_congr rfl fun k _ => ?_)
  refine congrArg₂ (· * ·) ?_ rfl
  rw [truncf_apply, maximumf_apply, addf_apply, addf_apply, DenseVec.matmul_zero_ix2 plain_first,
    DenseVec.matmul_zero_ix2 plain_first, broadcastTo_1b_ab_apply, broadcast_apply]
  rfl

/-- The same at any index `j` of the block, through its two coordinates. -/
theorem stored_at (x0 x1 : Vec Ideal S2000x64 .f32) (x2 x3 : Vec Ideal S64x128 .f32) (x4 : Vec Ideal S1x128 .f32)
    (x5 : Vec Ideal S128x64 .f32) (x6 : Vec Ideal S1x64 .f32) (j : S2000x64.Idx) :
    k0_pay1 x0 x1 x2 x3 x4 x5 x6 j
      = entry (fun a => x0 (ix2 (j 0 : Fin 2000) a)) (fun a => x1 (ix2 (j 0 : Fin 2000) a)) (fun a k => x2 (ix2 a k))
          (fun a k => x3 (ix2 a k)) (fun k => x4 (ix2 (0 : Fin 1) k)) (fun k => x5 (ix2 k (j 1 : Fin 64)))
          (x6 (ix2 (0 : Fin 1) (j 1 : Fin 64))) := by
  obtain ⟨p, q, rfl⟩ : ∃ (p : Fin 2000) (q : Fin 64), j = ix2 p q := ⟨j 0, j 1, eq_ix2 j⟩
  exact stored_apply x0 x1 x2 x3 x4 x5 x6 p q

end Cert.NodeMlp

end
-- ==== Proof.KernelArray.lean ====
/-
  From the blocks the grid points write to the whole result array.

  The grid has 50 points. Point t reads rows 2000·t … 2000·t + 1999 of the feature array and of the aggregated
  message array, and the whole of the two weight halves, the two bias rows and the second weight matrix; it writes
  rows 2000·t … 2000·t + 1999 of the result. Row p of the block it writes is the perceptron entry of row p of the two
  blocks it read, which are rows 2000·t + p of the two arrays: so the block is block t of ONE function of the whole
  arrays — entry (r, j) is the perceptron entry of row r. The 50 blocks tile the 100000 rows (row r is in block
  r / 2000), so the result array ends holding that function. The arrays the region finds are the host operations'
  results: the aggregated messages, the two halves of the first weight matrix, the biases recast as rows.
-/
import proofs.«152239_j7713761264052_1_alg».proof.Proof.Gen.KernelIdeal.Value
import proofs.«152239_j7713761264052_1_alg».proof.Proof.KernelEntry
import Idealize.ShloMosaic.Lib.Pipeline.Value
import Idealize.ShloMosaic.Lib.StableHlo.Run
import Idealize.ShloMosaic.Lib.Tactic

noncomputable section

open scoped BigOperators

namespace Cert.NodeMlp

open Cert.KernelIdeal Cert.KernelIdeal.Gen Idealize.ShloMosaic Idealize.ShloMosaic.TcCoe Idealize.SL.Sem
open Idealize.ShloMosaic.ValueIdx
open Idealize.ShloMosaic.Pipeline (Dat)

/-- Entry (r, j) of the result as a function of the seven arrays the region reads: node `r`'s feature row and message
    row, the two weight halves, the first bias row, column `j` of the second weight matrix and the second bias row. -/
def rowEntry (X S : Vec Ideal S100000x64 .f32) (A B : Vec Ideal S64x128 .f32) (b1r : Vec Ideal S1x128 .f32)
    (W2 : Vec Ideal S128x64 .f32) (b2r : Vec Ideal S1x64 .f32) (r : Fin 100000) (j : Fin 64) : EReal :=
  entry (fun a => X (ix2 r a)) (fun a => S (ix2 r a)) (fun a k => A (ix2 a k)) (fun a k => B (ix2 a k))
    (fun k => b1r (ix2 (0 : Fin 1) k)) (fun k => W2 (ix2 k j)) (b2r (ix2 (0 : Fin 1) j))

/-- The whole result array as one function of those arrays. -/
def arrayOf (X S : Vec Ideal S100000x64 .f32) (A B : Vec Ideal S64x128 .f32) (b1r : Vec Ideal S1x128 .f32)
    (W2 : Vec Ideal S128x64 .f32) (b2r : Vec Ideal S1x64 .f32) : Vec Ideal S100000x64 .f32 :=
  fun i => rowEntry X S A B b1r W2 b2r (i 0) (i 1)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 50 points: the two row-blocked inputs and the output sit at block row
    `t`, block column 0; every other input is its one whole block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block, read at an index of its array

Each read is first stated for an arbitrary array of the window's shape, so that nothing about how the host program
computed the array enters the index arithmetic; the region's own arrays are then instances. -/

/-- Block `t` of window 0, read off ANY array `X` of its shape at a block index `y`, is `X` at the array index `i` with
    row 2000·t + the block row and the same column. -/
theorem block0_read (t : Fin cfg0.N) (X : Vec Ideal S100000x64 .f32) (y : S2000x64.Idx) (i : S100000x64.Idx)
    (h0 : (i 0).val = 2000 * t.val + (y 0).val) (h1 : (i 1).val = (y 1).val) :
    (((cfg0.win 0).blk t).view.read (Elt Ideal) X : Vec Ideal S2000x64 .f32) y = X i := by
  obtain ⟨e0, e1, -⟩ := idx_facts t
  rw [View.read_apply]
  show X _ = X i
  refine congrArg X (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 64 + 1 * (y 1).val = (i 1).val; rw [e1, h1]; omega

/-- The feature block at point `t` is rows 2000·t … of the feature array. -/
theorem read_features (c : Dev nD) (t : Fin cfg0.N) (y : S2000x64.Idx) (i : S100000x64.Idx)
    (h0 : (i 0).val = 2000 * t.val + (y 0).val) (h1 : (i 1).val = (y 1).val) :
    (iblk m c 0 t : Vec Ideal S2000x64 .f32) y = (V m c main_arg0 : Vec Ideal S100000x64 .f32) i := by
  unfold iblk
  exact block0_read t _ y i h0 h1

/-- Block `t` of window 1, read off ANY array `X` of its shape at a block index `y`, is `X` at the array index `i` with
    row 2000·t + the block row and the same column. -/
theorem block1_read (t : Fin cfg0.N) (X : Vec Ideal S100000x64 .f32) (y : S2000x64.Idx) (i : S100000x64.Idx)
    (h0 : (i 0).val = 2000 * t.val + (y 0).val) (h1 : (i 1).val = (y 1).val) :
    (((cfg0.win 1).blk t).view.read (Elt Ideal) X : Vec Ideal S2000x64 .f32) y = X i := by
  obtain ⟨-, -, e0, e1, -⟩ := idx_facts t
  rw [View.read_apply]
  show X _ = X i
  refine congrArg X (funext fun a => Fin.ext ?_)
  match a with
  | ⟨0, _⟩ => show win0_1.index t (0 : Fin 2) * 2000 + 1 * (y 0).val = (i 0).val; rw [e0, h0]; omega
  | ⟨1, _⟩ => show win0_1.index t (1 : Fin 2) * 64 + 1 * (y 1).val = (i 1).val; rw [e1, h1]; omega

/-- The message block at point `t` is rows 2000·t … of the aggregated message array. -/
theorem read_messages (c : Dev nD) (t : Fin cfg0.N) (y : S2000x64.Idx) (i : S100000x64.Idx)
    (h0 : (i 0).val = 2000 * t.val + (y 0).val) (h1 : (i 1).val = (y 1).val) :
    (iblk m c 1 t : Vec Ideal S2000x64 .f32) y = (V m c main_v4 : Vec Ideal S100000x64 .f32) i := by
  unfold iblk
  exact block1_read t _ y i h0 h1

/-- Block `t` of window 2, read off ANY array `X` of its shape at a block index `y`, is `X` at the array index `i` with
    the same coordinates (the window's one block is the whole array). -/
theorem block2_read (t : Fin cfg0.N) (X : Vec Ideal S64x128 .f32) (y : S64x128.Idx) (i : S64x128.Idx)
    (h0 : (i 0).val = (y 0).val) (h1 : (i 1).val = (y 1).val) :
    (((cfg0.win 2).blk t).view.read (Elt Ideal) X : Vec Ideal S64x128 .f32) y = X i := by
  obtain ⟨-, -, -, -, e0, e1, -⟩ := idx_facts t
  rw [View.read_apply]
  show X _ = X i
  refine congrArg X (funext fun a => Fin.ext ?_)
  match a with
  | ⟨0, _⟩ => show win0_2.index t (0 : Fin 2) * 64 + 1 * (y 0).val = (i 0).val; rw [e0, h0]; omega
  | ⟨1, _⟩ => show win0_2.index t (1 : Fin 2) * 128 + 1 * (y 1).val = (i 1).val; rw [e1, h1]; omega

/-- The first weight half's block is the whole array, at every point. -/
theorem read_half_lo (c : Dev nD) (t : Fin cfg0.N) (y : S64x128.Idx) (i : S64x128.Idx)
    (h0 : (i 0).val = (y 0).val) (h1 : (i 1).val = (y 1).val) :
    (iblk m c 2 t : Vec Ideal S64x128 .f32) y = (V m c main_v5 : Vec Ideal S64x128 .f32) i := by
  unfold iblk
  exact block2_read t _ y i h0 h1

/-- Block `t` of window 3, read off ANY array `X` of its shape at a block index `y`, is `X` at the array index `i` with
    the same coordinates (the window's one block is the whole array). -/
theorem block3_read (t : Fin cfg0.N) (X : Vec Ideal S64x128 .f32) (y : S64x128.Idx) (i : S64x128.Idx)
    (h0 : (i 0).val = (y 0).val) (h1 : (i 1).val = (y 1).val) :
    (((cfg0.win 3).blk t).view.read (Elt Ideal) X : Vec Ideal S64x128 .f32) y = X i := by
  obtain ⟨-, -, -, -, -, -, e0, e1, -⟩ := idx_facts t
  rw [View.read_apply]
  show X _ = X i
  refine congrArg X (funext fun a => Fin.ext ?_)
  match a with
  | ⟨0, _⟩ => show win0_3.index t (0 : Fin 2) * 64 + 1 * (y 0).val = (i 0).val; rw [e0, h0]; omega
  | ⟨1, _⟩ => show win0_3.index t (1 : Fin 2) * 128 + 1 * (y 1).val = (i 1).val; rw [e1, h1]; omega

/-- The second weight half's block is the whole array, at every point. -/
theorem read_half_hi (c : Dev nD) (t : Fin cfg0.N) (y : S64x128.Idx) (i : S64x128.Idx)
    (h0 : (i 0).val = (y 0).val) (h1 : (i 1).val = (y 1).val) :
    (iblk m c 3 t : Vec Ideal S64x128 .f32) y = (V m c main_v6 : Vec Ideal S64x128 .f32) i := by
  unfold iblk
  exact block3_read t _ y i h0 h1

/-- Block `t` of window 4, read off ANY array `X` of its shape at a block index `y`, is `X` at the array index `i` with
    the same coordinates (the window's one block is the whole array). -/
theorem block4_read (t : Fin cfg0.N) (X : Vec Ideal S1x128 .f32) (y : S1x128.Idx) (i : S1x128.Idx)
    (h0 : (i 0).val = (y 0).val) (h1 : (i 1).val = (y 1).val) :
    (((cfg0.win 4).blk t).view.read (Elt Ideal) X : Vec Ideal S1x128 .f32) y = X i := by
  obtain ⟨-, -, -, -, -, -, -, -, e0, e1, -⟩ := idx_facts t
  rw [View.read_apply]
  show X _ = X i
  refine congrArg X (funext fun a => Fin.ext ?_)
  match a with
  | ⟨0, _⟩ => show win0_4.index t (0 : Fin 2) * 1 + 1 * (y 0).val = (i 0).val; rw [e0, h0]; omega
  | ⟨1, _⟩ => show win0_4.index t (1 : Fin 2) * 128 + 1 * (y 1).val = (i 1).val; rw [e1, h1]; omega

/-- The first bias row's block is the whole row, at every point. -/
theorem read_bias1 (c : Dev nD) (t : Fin cfg0.N) (y : S1x128.Idx) (i : S1x128.Idx)
    (h0 : (i 0).val = (y 0).val) (h1 : (i 1).val = (y 1).val) :
    (iblk m c 4 t : Vec Ideal S1x128 .f32) y = (V m c main_v7 : Vec Ideal S1x128 .f32) i := by
  unfold iblk
  exact block4_read t _ y i h0 h1

/-- Block `t` of window 5, read off ANY array `X` of its shape at a block index `y`, is `X` at the array index `i` with
    the same coordinates (the window's one block is the whole array). -/
theorem block5_read (t : Fin cfg0.N) (X : Vec Ideal S128x64 .f32) (y : S128x64.Idx) (i : S128x64.Idx)
    (h0 : (i 0).val = (y 0).val) (h1 : (i 1).val = (y 1).val) :
    (((cfg0.win 5).blk t).view.read (Elt Ideal) X : Vec Ideal S128x64 .f32) y = X i := by
  obtain ⟨-, -, -, -, -, -, -, -, -, -, e0, e1, -⟩ := idx_facts t
  rw [View.read_apply]
  show X _ = X i
  refine congrArg X (funext fun a => Fin.ext ?_)
  match a with
  | ⟨0, _⟩ => show win0_5.index t (0 : Fin 2) * 128 + 1 * (y 0).val = (i 0).val; rw [e0, h0]; omega
  | ⟨1, _⟩ => show win0_5.index t (1 : Fin 2) * 64 + 1 * (y 1).val = (i 1).val; rw [e1, h1]; omega

/-- The second weight matrix's block is the whole matrix, at every point. -/
theorem read_weight2 (c : Dev nD) (t : Fin cfg0.N) (y : S128x64.Idx) (i : S128x64.Idx)
    (h0 : (i 0).val = (y 0).val) (h1 : (i 1).val = (y 1).val) :
    (iblk m c 5 t : Vec Ideal S128x64 .f32) y = (V m c main_arg7 : Vec Ideal S128x64 .f32) i := by
  unfold iblk
  exact block5_read t _ y i h0 h1

/-- Block `t` of window 6, read off ANY array `X` of its shape at a block index `y`, is `X` at the array index `i` with
    the same coordinates (the window's one block is the whole array). -/
theorem block6_read (t : Fin cfg0.N) (X : Vec Ideal S1x64 .f32) (y : S1x64.Idx) (i : S1x64.Idx)
    (h0 : (i 0).val = (y 0).val) (h1 : (i 1).val = (y 1).val) :
    (((cfg0.win 6).blk t).view.read (Elt Ideal) X : Vec Ideal S1x64 .f32) y = X i := by
  obtain ⟨-, -, -, -, -, -, -, -, -, -, -, -, e0, e1, -⟩ := idx_facts t
  rw [View.read_apply]
  show X _ = X i
  refine congrArg X (funext fun a => Fin.ext ?_)
  match a with
  | ⟨0, _⟩ => show win0_6.index t (0 : Fin 2) * 1 + 1 * (y 0).val = (i 0).val; rw [e0, h0]; omega
  | ⟨1, _⟩ => show win0_6.index t (1 : Fin 2) * 64 + 1 * (y 1).val = (i 1).val; rw [e1, h1]; omega

/-- The second bias row's block is the whole row, at every point. -/
theorem read_bias2 (c : Dev nD) (t : Fin cfg0.N) (y : S1x64.Idx) (i : S1x64.Idx)
    (h0 : (i 0).val = (y 0).val) (h1 : (i 1).val = (y 1).val) :
    (iblk m c 6 t : Vec Ideal S1x64 .f32) y = (V m c main_v8 : Vec Ideal S1x64 .f32) i := by
  unfold iblk
  exact block6_read t _ y i h0 h1

/-! ## What a point writes back, and the cover -/

/-- What point `t` writes back is block `t` of `arrayOf` of the arrays as the region finds them. -/
theorem flushed_eq (c : Dev nD) (t : Fin cfg0.N) :
    (dats m 0 c).flushed 7 t = ((cfg0.win 7).blk t).view.read (Elt Ideal)
      (arrayOf (V m c main_arg0) (V m c main_v4) (V m c main_v5) (V m c main_v6) (V m c main_v7) (V m c main_arg7)
        (V m c main_v8)) := by
  rw [Cert.KernelIdeal.Value.flushed7]
  unfold out0_7
  rw [View.canon_unit_zero hz]
  simp only [View.ld_unit_zero (S := S2000x64) hz, View.ld_unit_zero (S := S64x128) hz, View.ld_unit_zero (S := S1x128) hz,
    View.ld_unit_zero (S := S128x64) hz, View.ld_unit_zero (S := S1x64) hz]
  obtain ⟨-, -, -, -, -, -, -, -, -, -, -, -, -, -, e0, e1⟩ := idx_facts t
  funext j
  show k0_pay1 (iblk m c 0 t) (iblk m c 1 t) (iblk m c 2 t) (iblk m c 3 t) (iblk m c 4 t) (iblk m c 5 t) (iblk m c 6 t) j
    = arrayOf (V m c main_arg0) (V m c main_v4) (V m c main_v5) (V m c main_v6) (V m c main_v7) (V m c main_arg7)
        (V m c main_v8) (((cfg0.win 7).blk t).view.emb j)
  refine (stored_at _ _ _ _ _ _ _ j).trans ?_
  unfold arrayOf rowEntry
  have r0 : ((((cfg0.win 7).blk t).view.emb j) 0).val = 2000 * t.val + (j 0).val := by
    show win0_7.index t (0 : Fin 2) * 2000 + 1 * (j 0).val = 2000 * t.val + (j 0).val
    rw [e0]; omega
  have r1 : ((((cfg0.win 7).blk t).view.emb j) 1).val = (j 1).val := by
    show win0_7.index t (1 : Fin 2) * 64 + 1 * (j 1).val = (j 1).val
    rw [e1]; omega
  refine entry_congr (fun a => ?_) (fun a => ?_) (fun a k => ?_) (fun a k => ?_) (fun k => ?_) (fun k => ?_) ?_
  · exact read_features m c t _ _ r0 rfl
  · exact read_messages m c t _ _ r0 rfl
  · exact read_half_lo m c t _ _ rfl rfl
  · exact read_half_hi m c t _ _ rfl rfl
  · exact read_bias1 m c t _ _ rfl rfl
  · exact read_weight2 m c t _ _ rfl r1
  · exact read_bias2 m c t _ _ rfl r1

/-- An index of the result array is in point `t`'s block iff each coordinate is in the block's range on its axis. -/
theorem mem_blk (t : Fin cfg0.N) (i : S100000x64.Idx) :
    i ∈ ((cfg0.win 7).blk t).view.set ↔ ∀ a : Fin 2, win0_7.index t a * S2000x64.size a ≤ (i a).val
      ∧ (i a).val < win0_7.index t a * S2000x64.size a + S2000x64.size a := by
  show i ∈ ((View.whole main_v9).slice (win0_7.rect t)).set ↔ _
  rw [View.set_slice_whole, Rect.mem_set_unit]
  exact Iff.rfl

/-- Every index of the result array is in some point's block: row `r` is in block `r / 2000`. -/
theorem cover (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : grid0.N = 50 := N_0
  obtain ⟨t, ht⟩ : ∃ t : Fin cfg0.N, t.val = (i 0).val / 2000 :=
    ⟨⟨(i 0).val / 2000, by show (i 0).val / 2000 < grid0.N; rw [hN]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 2000 ≤ (i 0).val ∧ (i 0).val < win0_7.index t (0 : Fin 2) * 2000 + 2000
    rw [e0, ht]; omega
  | ⟨1, _⟩ =>
    show win0_7.index t (1 : Fin 2) * 64 ≤ (i 1).val ∧ (i 1).val < win0_7.index t (1 : Fin 2) * 64 + 64
    rw [e1]; omega

/-- The result array after the run, over the arrays as the region finds them. -/
theorem final_entry (c : Dev nD) : (dats m 0 c).arrAt 7 cfg0.N
    = arrayOf (V m c main_arg0) (V m c main_v4) (V m c main_v5) (V m c main_v6) (V m c main_v7) (V m c main_arg7)
        (V m c main_v8) :=
  (dats m 0 c).arrAt_eq_of_cover 7 _ (fun t _ => flushed_eq m c t) cover

end Cert.NodeMlp

end
-- ==== Proof.RegionInputs.lean ====
/-
  What the kernel's region finds in its operand arrays.

  Before the region the host program computes, from the arguments: the aggregated messages (every edge's feature row
  added into the row of the node the edge's first endpoint names, starting from zeros), the first 64 and the last 64
  rows of the first weight matrix, and the two bias vectors recast as one-row matrices. The feature array and the
  second weight matrix are arguments and reach the region as launched. The aggregation is carried as one named term
  of the two edge arguments; nothing here looks inside it.
-/
import proofs.«152239_j7713761264052_1_alg».proof.Proof.Gen.KernelIdeal.Frame
import Idealize.ShloMosaic.Lib.StableHlo.Run
import Idealize.ShloMosaic.PureOps.Ideal

noncomputable section

namespace Cert.NodeMlp

open Cert.KernelIdeal Cert.KernelIdeal.Gen Idealize.ShloMosaic Idealize.ShloMosaic.TcCoe Idealize.SL.Sem
open Idealize.ShloMosaic.StableHlo

/-- The aggregated messages as the kernel's host program computes them from the edge endpoints `x1` and the edge
    features `x2`: a scatter-add of the feature rows into zeros, at the rows the first endpoints name. -/
def aggregated (x1 : (⟨S2x1600000, .i32⟩ : BufTy).Contents (Elt Ideal)) (x2 : (⟨S1600000x64, .f32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0
      (shapeCast _ (extractStridedSlice S1x1600000 ![0, 0] x1 slices_S2x1600000_S1x1600000_0_0) shapeCasts_S1x1600000_S1600000))
    x2

variable (m : (ℓ : Loc nD τ sig) → Buf (Elt Ideal) ℓ)

/-- The message operand is the aggregation of the two edge arguments. -/
theorem V_messages (c : Dev nD) : (V m c main_v4 : (⟨S100000x64, .f32⟩ : BufTy).Contents (Elt Ideal))
    = aggregated (m ((c : Thread nD τ).loc main_arg1)) (m ((c : Thread nD τ).loc main_arg2)) := by
  dsimp only [Gen.V, Gen.hostOps0]
  after_results <;> rfl

/-- The first weight half is rows 0 … 63 of the first weight matrix. -/
theorem V_half_lo (c : Dev nD) : (V m c main_v5 : (⟨S64x128, .f32⟩ : BufTy).Contents (Elt Ideal))
    = extractStridedSlice S64x128 ![0, 0] (m ((c : Thread nD τ).loc main_arg5)) slices_S128x128_S64x128_0_0 := by
  dsimp only [Gen.V, Gen.hostOps0]
  after_results <;> rfl

/-- The second weight half is rows 64 … 127 of the first weight matrix. -/
theorem V_half_hi (c : Dev nD) : (V m c main_v6 : (⟨S64x128, .f32⟩ : BufTy).Contents (Elt Ideal))
    = extractStridedSlice S64x128 ![64, 0] (m ((c : Thread nD τ).loc main_arg5)) slices_S128x128_S64x128_64_0 := by
  dsimp only [Gen.V, Gen.hostOps0]
  after_results <;> rfl

/-- The first bias row is the first bias vector under a leading unit axis. -/
theorem V_bias1 (c : Dev nD) : (V m c main_v7 : (⟨S1x128, .f32⟩ : BufTy).Contents (Elt Ideal))
    = shapeCast _ (m ((c : Thread nD τ).loc main_arg6)) shapeCasts_S128_S1x128 := by
  dsimp only [Gen.V, Gen.hostOps0]
  after_results <;> rfl

/-- The second bias row is the second bias vector under a leading unit axis. -/
theorem V_bias2 (c : Dev nD) : (V m c main_v8 : (⟨S1x64, .f32⟩ : BufTy).Contents (Elt Ideal))
    = shapeCast _ (m ((c : Thread nD τ).loc main_arg8)) shapeCasts_S64_S1x64 := by
  dsimp only [Gen.V, Gen.hostOps0]
  after_results <;> rfl

end Cert.NodeMlp

end
-- ==== Proof.KernelRun.lean ====
/-
  The kernel's run, read: the result array as one function of the arguments.

  The result array ends holding, at entry (r, j), the perceptron entry of node r's feature row and aggregated message
  row against the two halves of the first weight matrix, the two biases and column j of the second weight matrix —
  every operand now spelt as the host operations' term of the program's arguments.
-/
import proofs.«152239_j7713761264052_1_alg».proof.Proof.KernelArray
import proofs.«152239_j7713761264052_1_alg».proof.Proof.RegionInputs

noncomputable section

namespace Cert.NodeMlp

open Cert.KernelIdeal Cert.KernelIdeal.Gen Idealize.ShloMosaic Idealize.ShloMosaic.TcCoe Idealize.SL.Sem

/-- The result array as a function of the seven arguments it depends on: features `x0`, edge endpoints `x1`, edge
    features `x2`, first weight matrix `x5`, first bias `x6`, second weight matrix `x7`, second bias `x8`. -/
def mlpArray (x0 : (⟨S100000x64, .f32⟩ : BufTy).Contents (Elt Ideal)) (x1 : (⟨S2x1600000, .i32⟩ : BufTy).Contents (Elt Ideal))
    (x2 : (⟨S1600000x64, .f32⟩ : BufTy).Contents (Elt Ideal)) (x5 : (⟨S128x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) : (⟨S100000x64, .f32⟩ : BufTy).Contents (Elt Ideal) :=
  arrayOf x0 (aggregated x1 x2)
    (extractStridedSlice S64x128 ![0, 0] x5 slices_S128x128_S64x128_0_0)
    (extractStridedSlice S64x128 ![64, 0] x5 slices_S128x128_S64x128_64_0)
    (shapeCast _ x6 shapeCasts_S128_S1x128) x7 (shapeCast _ x8 shapeCasts_S64_S1x64)

variable (m : (ℓ : Loc nD τ sig) → Buf (Elt Ideal) ℓ) (ρ : Dev nD → PrngReg)

/-- The result array after the run, over the arguments as launched. -/
theorem final (c : Dev nD) : (dats m 0 c).arrAt 7 cfg0.N
    = mlpArray (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7))
        (m ((c : Thread nD τ).loc main_arg8)) := by
  rw [final_entry, V_main_arg0, V_messages, V_half_lo, V_half_hi, V_bias1, V_main_arg7, V_bias2]
  rfl

/-- Every weakly fair execution of the idealized kernel's program terminates with the result array at `mlpArray` of
    the arguments and the arguments unchanged. -/
theorem run : θ_run defs (onTc (τ := τ) (main (F := Ideal))) ⟨m, fun _ => 0, ρ⟩ fun r => ∀ c : Dev nD,
      r.2.mem ((c : Thread nD τ).loc main_v9)
        = mlpArray (m ((c : Thread nD τ).loc main_arg0)) (m ((c : Thread nD τ).loc main_arg1)) (m ((c : Thread nD τ).loc main_arg2))
            (m ((c : Thread nD τ).loc main_arg5)) (m ((c : Thread nD τ).loc main_arg6)) (m ((c : Thread nD τ).loc main_arg7))
            (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.NodeMlp

end
-- ==== Proof.ReferenceEntry.lean ====
/-
  The reference's result, read at an entry.

  The reference joins each node's feature row with its aggregated message row into one row of 128 numbers, multiplies
  the joined rows by the whole 128 × 128 first weight matrix, adds the first bias along every row, takes the maximum
  with zero, multiplies by the second weight matrix and adds the second bias along every row. At the entry (r, j) that
  is the perceptron entry of node r's two rows against the first 64 and the last 64 rows of the first weight matrix:
  the product over the 128 joined positions is the sum of the two halves' products. The aggregated messages are one
  term of the edge inputs that is carried whole and never opened.
-/
import proofs.«152239_j7713761264052_1_alg».proof.Proof.Gen.ReferenceIdeal.Read
import proofs.«152239_j7713761264052_1_alg».proof.Proof.LibDenseVec
import proofs.«152239_j7713761264052_1_alg».proof.Proof.MlpEntry
import Idealize.ShloMosaic.Lib.ValueIdx
import Idealize.ShloMosaic.Lib.Pipeline.Value

noncomputable section

open scoped BigOperators

namespace Cert.NodeMlp

open Cert.ReferenceIdeal Cert.ReferenceIdeal.Gen Idealize.ShloMosaic Idealize.ShloMosaic.ValueIdx

/-- Position `a` of the first half of a joined row of 128. -/
abbrev lo (a : Fin 64) : Fin 128 := ⟨a.val, Nat.lt_of_lt_of_le a.isLt (by decide)⟩
/-- Position `a` of the last half of a joined row of 128. -/
abbrev hi (a : Fin 64) : Fin 128 := ⟨64 + a.val, by have := a.isLt; omega⟩

/-- The reference's first product ([100000, 128] · [128, 128]) contracts the left operand's columns with the right
    operand's rows, one axis of extent 128, and its free axes read the result's row and column. -/
theorem plain_ref_first : DenseVec.Plain dot_S100000x128_S128x128_S100000x128_1_0_0_1_n_n where
  rank := rfl
  size := fun _ => rfl
  lhs := rfl
  rhs := rfl
  row := fun j q => Read.lhs_main_v6_0 j q
  col := fun j q => Read.rhs_main_v6_1 j q

/-- The reference's second product ([100000, 128] · [128, 64]) likewise. -/
theorem plain_ref_second : DenseVec.Plain dot_S100000x128_S128x64_S100000x64_1_0_0_1_n_n where
  rank := rfl
  size := fun _ => rfl
  lhs := rfl
  rhs := rfl
  row := fun j q => Read.lhs_main_v11_0 j q
  col := fun j q => Read.rhs_main_v11_1 j q

variable (x0 : (⟨S100000x64, .f32⟩ : BufTy).Contents (Elt Ideal)) (x1 : (⟨S2x1600000, .i32⟩ : BufTy).Contents (Elt Ideal))
  (x2 : (⟨S1600000x64, .f32⟩ : BufTy).Contents (Elt Ideal)) (x5 : (⟨S128x128, .f32⟩ : BufTy).Contents (Elt Ideal))
  (x6 : (⟨S128, .f32⟩ : BufTy).Contents (Elt Ideal)) (x7 : (⟨S128x64, .f32⟩ : BufTy).Contents (Elt Ideal))
  (x8 : (⟨S64, .f32⟩ : BufTy).Contents (Elt Ideal))

/-- The first half of node `r`'s joined row is its feature row. -/
theorem joined_lo (r : Fin 100000) (a : Fin 64) :
    Read.val_main_v5 (F := Ideal) x0 x1 x2 (ix2 r (lo a)) = x0 (ix2 r a) := by
  unfold Read.val_main_v5
  exact concatenate_pair_apply_left 1 x0 _ concatenates_S100000x64_S100000x64_S100000x128_d1 (ix2 r (lo a)) rfl (ix2 r a)
    (fun b => by match b with | ⟨0, _⟩ => rfl | ⟨1, _⟩ => rfl)

/-- The last half of node `r`'s joined row is its aggregated message row. -/
theorem joined_hi (r : Fin 100000) (a : Fin 64) :
    Read.val_main_v5 (F := Ideal) x0 x1 x2 (ix2 r (hi a)) = Read.val_main_v4 (F := Ideal) x1 x2 (ix2 r a) := by
  unfold Read.val_main_v5
  exact concatenate_pair_apply_right 1 x0 _ concatenates_S100000x64_S100000x64_S100000x128_d1 (ix2 r (hi a)) rfl rfl (ix2 r a)
    (fun b hb => by
      match b with
      | ⟨0, _⟩ => rfl
      | ⟨1, _⟩ => exact absurd rfl hb)
    (by show a.val + 64 = 64 + a.val; omega)

/-- The hidden layer at node `r`, unit `k`: the joined row against column `k` of the first weight matrix, plus the
    first bias, clipped below at zero. -/
theorem hidden_apply (r : Fin 100000) (k : Fin 128) :
    Read.val_main_v10 (F := Ideal) x0 x1 x2 x5 x6 (ix2 r k)
      = max ((∑ a : Fin 128, Read.val_main_v5 (F := Ideal) x0 x1 x2 (ix2 r a) * x5 (ix2 a k)) + x6 (ix1 k)) zeroWord := by
  unfold Read.val_main_v10 Read.val_main_v9 Read.val_main_v6 Read.val_main_v8 Read.val_main_v7
  rw [maximumf_apply, addf_apply, DenseVec.dotGeneral_ix2 plain_ref_first, Keepdims.cols_apply]
  rfl

/-- The reference's result at node `r`, output `j`: the perceptron entry of the node's feature row and message row
    against the two halves of the first weight matrix. -/
theorem ref_apply (r : Fin 100000) (j : Fin 64) :
    Read.val_main_v14 (F := Ideal) x0 x1 x2 x5 x6 x7 x8 (ix2 r j)
      = entry (fun a => x0 (ix2 r a)) (fun a => Read.val_main_v4 (F := Ideal) x1 x2 (ix2 r a))
          (fun a k => x5 (ix2 (lo a) k)) (fun a k => x5 (ix2 (hi a) k)) (fun k => x6 (ix1 k))
          (fun k => x7 (ix2 k j)) (x8 (ix1 j)) := by
  unfold Read.val_main_v14 Read.val_main_v11 Read.val_main_v13 Read.val_main_v12
  rw [addf_apply, DenseVec.dotGeneral_ix2 plain_ref_second, Keepdims.cols_apply]
  simp only [hidden_apply]
  exact entry_joined _ _ _ _ _ _ _ (fun a => Read.val_main_v5 (F := Ideal) x0 x1 x2 (ix2 r a)) (fun a k => x5 (ix2 a k))
    (fun a => joined_lo x0 x1 x2 r a) (fun a => joined_hi x0 x1 x2 r a) (fun _ _ => rfl) (fun _ _ => rfl)

end Cert.NodeMlp

end
-- ==== Proof.lean ====
/-
  A node update of a graph network, tiled over the nodes, against its plain reference.

  Both programs first add every edge's 64 features into the row of the node its first endpoint names (the same
  scatter-add of the same operands in both: it is carried as one term and never opened). The reference then joins
  each node's 64 features with its 64 aggregated features, multiplies the joined row by the 128 × 128 first weight
  matrix, adds the first bias, clips below at zero, multiplies by the 128 × 64 second weight matrix and adds the second
  bias. The kernel does the same on 50 blocks of 2000 nodes, but never joins the rows: it multiplies the features by
  the first 64 rows of the first weight matrix and the aggregated features by its last 64 rows, and adds the two
  products. On the extended reals the two agree entry by entry: a sum over the 128 joined positions is the sum over
  the first 64 plus the sum over the last 64, which uses only that addition is commutative and associative and so
  holds at every value, infinite ones included — the inputs' finiteness is never used. Changes of float format are
  the identity on the extended reals, a product into a zero accumulator and the host's contraction are the same sum,
  and the blocks tile the node axis.
-/
import proofs.«152239_j7713761264052_1_alg».proof.Defs
import proofs.«152239_j7713761264052_1_alg».proof.Proof.Gen.Kernel
import proofs.«152239_j7713761264052_1_alg».proof.Proof.Gen.Kernel.Skeleton
import proofs.«152239_j7713761264052_1_alg».proof.Proof.Gen.Kernel.Launch
import proofs.«152239_j7713761264052_1_alg».proof.Proof.Gen.Kernel.Points
import proofs.«152239_j7713761264052_1_alg».proof.Proof.Gen.Kernel.Frame
import proofs.«152239_j7713761264052_1_alg».proof.Proof.Gen.KernelIdeal
import proofs.«152239_j7713761264052_1_alg».proof.Proof.Gen.KernelIdeal.Skeleton
import proofs.«152239_j7713761264052_1_alg».proof.Proof.Gen.KernelIdeal.Launch
import proofs.«152239_j7713761264052_1_alg».proof.Proof.Gen.KernelIdeal.Points
import proofs.«152239_j7713761264052_1_alg».proof.Proof.Gen.KernelIdeal.Frame
import proofs.«152239_j7713761264052_1_alg».proof.Proof.Gen.KernelIdeal.Value
import proofs.«152239_j7713761264052_1_alg».proof.Proof.Gen.ReferenceIdeal
import proofs.«152239_j7713761264052_1_alg».proof.Proof.Gen.ReferenceIdeal.Run
import proofs.«152239_j7713761264052_1_alg».proof.Proof.Gen.ReferenceIdeal.Read
import proofs.«152239_j7713761264052_1_alg».proof.Proof.Gen.Pre_finite_inputs
import proofs.«152239_j7713761264052_1_alg».proof.Proof.KernelRun
import proofs.«152239_j7713761264052_1_alg».proof.Proof.ReferenceEntry
import Idealize.ShloMosaic.Lib.ValueLayout
import Idealize.ShloMosaic.Adequacy
import Idealize.ShloMosaic.Init

noncomputable section

namespace Cert.NodeMlp

open Idealize.ShloMosaic Idealize.ShloMosaic.ValueIdx Idealize.SL.Sem

/-- The two programs aggregate the edge features by the same scatter-add of the same operands. -/
theorem aggregated_eq (x1 : (⟨Cert.KernelIdeal.S2x1600000, .i32⟩ : BufTy).Contents (Elt Ideal))
    (x2 : (⟨Cert.KernelIdeal.S1600000x64, .f32⟩ : BufTy).Contents (Elt Ideal)) :
    aggregated x1 x2 = Cert.ReferenceIdeal.Read.val_main_v4 (F := Ideal) x1 x2 := by
  unfold aggregated Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
  rfl

/-- The kernel's result array and the reference's result are one function of the arguments: entry by entry both are
    the perceptron entry of the node's feature row and aggregated row against the two halves of the first weight
    matrix — the kernel's halves are slices of the matrix the reference reads whole, its bias rows the reference's
    bias vectors under a unit axis. -/
theorem result_eq (x0 : (⟨Cert.KernelIdeal.S100000x64, .f32⟩ : BufTy).Contents (Elt Ideal))
    (x1 : (⟨Cert.KernelIdeal.S2x1600000, .i32⟩ : BufTy).Contents (Elt Ideal))
    (x2 : (⟨Cert.KernelIdeal.S1600000x64, .f32⟩ : BufTy).Contents (Elt Ideal))
    (x5 : (⟨Cert.KernelIdeal.S128x128, .f32⟩ : BufTy).Contents (Elt Ideal))
    (x6 : (⟨Cert.KernelIdeal.S128, .f32⟩ : BufTy).Contents (Elt Ideal))
    (x7 : (⟨Cert.KernelIdeal.S128x64, .f32⟩ : BufTy).Contents (Elt Ideal))
    (x8 : (⟨Cert.KernelIdeal.S64, .f32⟩ : BufTy).Contents (Elt Ideal)) :
    Cert.ReferenceIdeal.Read.val_main_v14 (F := Ideal) x0 x1 x2 x5 x6 x7 x8 = mlpArray x0 x1 x2 x5 x6 x7 x8 := by
  funext i
  obtain ⟨r, j, rfl⟩ : ∃ (r : Fin 100000) (j : Fin 64), i = ix2 r j := ⟨i 0, i 1, eq_ix2 i⟩
  rw [ref_apply]
  unfold mlpArray arrayOf rowEntry
  refine entry_congr (fun a => rfl) (fun a => (congrFun (aggregated_eq x1 x2) (ix2 r a)).symm) (fun a k => ?_) (fun a k => ?_)
    (fun k => ?_) (fun k => rfl) ?_
  · exact (extractStridedSlice_apply ![0, 0] x5 _ (ix2 a k) (ix2 (lo a) k) (fun b => by
      match b with
      | ⟨0, _⟩ => show a.val = 0 + a.val; omega
      | ⟨1, _⟩ => show k.val = 0 + k.val; omega)).symm
  · exact (extractStridedSlice_apply ![64, 0] x5 _ (ix2 a k) (ix2 (hi a) k) (fun b => by
      match b with
      | ⟨0, _⟩ => show 64 + a.val = 64 + a.val; rfl
      | ⟨1, _⟩ => show k.val = 0 + k.val; omega)).symm
  · exact (shapeCast_a_1a_apply x6 _ (0 : Fin 1) k).symm
  · exact (shapeCast_a_1a_apply x8 _ (0 : Fin 1) j).symm

end Cert.NodeMlp

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the idealized kernel and the idealized reference both run and end with
    the same result array: `mlpArray` of the arguments. -/
theorem algebraic : Cert.algebraic_KernelIdeal_ReferenceIdeal := by
  intro m ρ m' ρ' _ hagree
  refine ⟨_, Cert.NodeMlp.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, -, -, e5, e6, e7, e8⟩ := hagree c
  rw [e0, e1, e2, e5, e6, e7, e8, Cert.ReferenceIdeal.Read.val_main_v14_eq]
  exact Cert.NodeMlp.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
